-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1024 : Shape := ⟨2, ![100000, 1024]⟩
abbrev S2x1600000 : Shape := ⟨2, ![2, 1600000]⟩
abbrev S1600000x1 : Shape := ⟨2, ![1600000, 1]⟩
abbrev S100000x20 : Shape := ⟨2, ![100000, 20]⟩
abbrev S1024x128 : Shape := ⟨2, ![1024, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S100000x1024 : S_.BroadcastsInDim S100000x1024 (![] : Fin 0 → Fin S100000x1024.rank)
  reducesTo_S100000x1024_S_d0_1 : S100000x1024.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S100000x20 : S_.BroadcastsInDim S100000x20 (![] : Fin 0 → Fin S100000x20.rank)
  reducesTo_S100000x20_S_d0_1 : S100000x20.ReducesTo [0, 1] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg6 : FVec F S128 .f32) (main_arg7 : FVec F S128x3 .f32) (main_arg8 : FVec F S3 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x3 .f32 := Host.absf main_arg7
  let main_cst_8 : FVec F S_ .f32 := constant S_ .f32 0x7F800000#32
  let main_v25 : FVec F S128x3 .f32 := broadcastInDim S128x3 ![] bcast_S_S128x3 main_cst_8
  let main_v26 : IVec S128x3 1 := cmpf .olt main_v24 main_v25
  let main_c_9 : IVec S_ 1 := constantI S_ 1 1#1
  let main_v27 : IVec S_ 1 := (fun x v => Host.reduce IntOp.andi x v reducesTo_S128x3_S_d0_1 h_S_) main_v26 main_c_9
  let main_v28 : IVec S_ 1 := andi main_v23 main_v27
  let main_v29 : FVec F S3 .f32 := Host.absf main_arg8
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S100000x1024 .f32) (main_arg1 : IVec S2x1600000 32) (main_arg2 : IVec S2x1600000 32) (main_arg3 : FVec F S1600000x1 .f32) (main_arg4 : FVec F S100000x20 .f32) (main_arg5 : FVec F S1024x128 .f32) (main_arg6 : FVec F S128 .f32) (main_arg7 : FVec F S128x3 .f32) (main_arg8 : FVec F S3 .f32) : IVec S_ 1 :=
  let main_v0 : FVec F S100000x1024 .f32 := Host.absf main_arg0
  let main_cst : FVec F S_ .f32 := constant S_ .f32 0x7F800000#32
  let main_v1 : FVec F S100000x1024 .f32 := broadcastInDim S100000x1024 ![] bcast_S_S100000x1024 main_cst
  let main_v2 : IVec S100000x1024 1 := cmpf .olt main_v0 main_v1
  let main_c : IVec S_ 1 := constantI S_ 1 1#1
  let main_v3 : IVec S_ 1 := (fun x v => Host.reduce IntOp.andi x v reducesTo_S100000x1024_S_d0_1 h_S_) main_v2 main_c
  let main_v4 : FVec F S1600000x1 .f32 := Host.absf main_arg3
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S100000x20 .f32 := Host.absf main_arg4
  let main_cst_2 : FVec F S_ .f32 := constant S_ .f32 0x7F800000#32
  let main_v10 : FVec F S100000x20 .f32 := broadcastInDim S100000x20 ![] bcast_S_S100000x20 main_cst_2
  let main_v11 : IVec S100000x20 1 := cmpf .olt main_v9 main_v10
  let main_c_3 : IVec S_ 1 := constantI S_ 1 1#1
  let main_v12 : IVec S_ 1 := (fun x v => Host.reduce IntOp.andi x v reducesTo_S100000x20_S_d0_1 h_S_) main_v11 main_c_3
  let main_v13 : IVec S_ 1 := andi main_v8 main_v12
  let main_v14 : FVec F S1024x128 .f32 := Host.absf main_arg5
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg6 main_arg7 main_arg8 main_v13 main_v16
-- ==== Kernel.lean ====
abbrev S100000x1024 : Shape := ⟨2, ![100000, 1024]⟩
abbrev S2x1600000 : Shape := ⟨2, ![2, 1600000]⟩
abbrev S1600000x1 : Shape := ⟨2, ![1600000, 1]⟩
abbrev S100000x20 : Shape := ⟨2, ![100000, 20]⟩
abbrev S1024x128 : Shape := ⟨2, ![1024, 128]⟩
abbrev S128 : Shape := ⟨1, ![128]⟩
abbrev S128x3 : Shape := ⟨2, ![128, 3]⟩
abbrev S3 : Shape := ⟨1, ![3]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x1024 : Shape := ⟨2, ![2000, 1024]⟩
abbrev S2000x128 : Shape := ⟨2, ![2000, 128]⟩
abbrev S1700000x128 : Shape := ⟨2, ![1700000, 128]⟩
abbrev S1x128 : Shape := ⟨2, ![1, 128]⟩
abbrev S100000x3 : Shape := ⟨2, ![100000, 3]⟩
abbrev S5000x128 : Shape := ⟨2, ![5000, 128]⟩
abbrev S5000x3 : Shape := ⟨2, ![5000, 3]⟩
abbrev S1700000x3 : Shape := ⟨2, ![1700000, 3]⟩
abbrev S1x3 : Shape := ⟨2, ![1, 3]⟩

abbrev nBuf : Space → Nat
  | .hbm => 85
  | .vmem => 10
  | .smem => 0
  | _ => 0

abbrev bufTy : (tb : Table) → Fin (tcTables nBuf tb) → BufTy
  | .hbm, ⟨0, _⟩ => ⟨S100000x1024, .f32⟩
  | .hbm, ⟨1, _⟩ => ⟨S2x1600000, .i32⟩
  | .hbm, ⟨2, _⟩ => ⟨S2x1600000, .i32⟩
  | .hbm, ⟨3, _⟩ => ⟨S1600000x1, .f32⟩
  | .hbm, ⟨4, _⟩ => ⟨S100000x20, .f32⟩
  | .hbm, ⟨5, _⟩ => ⟨S1024x128, .f32⟩
  | .hbm, ⟨6, _⟩ => ⟨S128, .f32⟩
  | .hbm, ⟨7, _⟩ => ⟨S128x3, .f32⟩
  | .hbm, ⟨8, _⟩ => ⟨S3, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x3, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x3, .f32⟩
  | .hbm, ⟨75, _⟩ => ⟨S1700000x1, .f32⟩
  | .hbm, ⟨76, _⟩ => ⟨S1700000x3, .f32⟩
  | .hbm, ⟨77, _⟩ => ⟨S1700000x3, .f32⟩
  | .hbm, ⟨78, _⟩ => ⟨S_, .f32⟩
  | .hbm, ⟨79, _⟩ => ⟨S100000x3, .f32⟩
  | .hbm, ⟨80, _⟩ => ⟨S1700000x1, .i32⟩
  | .hbm, ⟨81, _⟩ => ⟨S100000x3, .f32⟩
  | .hbm, ⟨82, _⟩ => ⟨S1x3, .f32⟩
  | .hbm, ⟨83, _⟩ => ⟨S100000x3, .f32⟩
  | .hbm, ⟨84, _⟩ => ⟨S100000x3, .f32⟩
  | .local _ .vmem, ⟨0, _⟩ => ⟨S2000x1024, .f32⟩
  | .local _ .vmem, ⟨1, _⟩ => ⟨S2000x1024, .f32⟩
  | .local _ .vmem, ⟨2, _⟩ => ⟨S1024x128, .f32⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S128x3, .f32⟩
  | .local _ .vmem, ⟨8, _⟩ => ⟨S5000x3, .f32⟩
  | .local _ .vmem, ⟨9, _⟩ => ⟨S5000x3, .f32⟩
  | _, _ => ⟨S100000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x3_S128x3_0_0 : ∀ a, (![0, 0] : Fin 2 → Nat) a + S128x3.size a ≤ S128x3.size a
  h_S128x3 : 0 < S128x3.numel
  inb_S5000x3_S5000x3_0_0 : ∀ a, (![0, 0] : Fin 2 → Nat) a + S5000x3.size a ≤ S5000x3.size a
  h_S5000x3 : 0 < S5000x3.numel
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x1024_S1024x128_S2000x128_1_0_0_1_n_n_wf : DotDims.WF S2000x1024 S1024x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x3_S5000x3_1_0_0_1_n_n_wf : DotDims.WF S5000x128 S128x3 S5000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S100000x1024.size a
  hwx0_0 : ∀ i : grid0.Coords, EltTy.bits .f32 = 32 ∨ (Rect.block (s := S100000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x3.size a ≤ S128x3.size a
  hwx1_1 : ∀ i : grid1.Coords, EltTy.bits .f32 = 32 ∨ (Rect.block (s := S128x3) S128x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x3.size a ≤ S100000x3.size a
  hwx1_2 : ∀ i : grid1.Coords, EltTy.bits .f32 = 32 ∨ (Rect.block (s := S100000x3) S5000x3.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x3.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x1024 : Shape := ⟨2, ![100000, 1024]⟩
abbrev S2x1600000 : Shape := ⟨2, ![2, 1600000]⟩
abbrev S1600000x1 : Shape := ⟨2, ![1600000, 1]⟩
abbrev S100000x20 : Shape := ⟨2, ![100000, 20]⟩
abbrev S1024x128 : Shape := ⟨2, ![1024, 128]⟩
abbrev S128 : Shape := ⟨1, ![128]⟩
abbrev S128x3 : Shape := ⟨2, ![128, 3]⟩
abbrev S3 : Shape := ⟨1, ![3]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x3 : Shape := ⟨2, ![100000, 3]⟩
abbrev S1700000x3 : Shape := ⟨2, ![1700000, 3]⟩
abbrev S1x3 : Shape := ⟨2, ![1, 3]⟩

abbrev nBuf : Space → Nat
  | .hbm => 118
  | .vmem => 0
  | .smem => 0
  | _ => 0

abbrev bufTy : (tb : Table) → Fin (tcTables nBuf tb) → BufTy
  | .hbm, ⟨0, _⟩ => ⟨S100000x1024, .f32⟩
  | .hbm, ⟨1, _⟩ => ⟨S2x1600000, .i32⟩
  | .hbm, ⟨2, _⟩ => ⟨S2x1600000, .i32⟩
  | .hbm, ⟨3, _⟩ => ⟨S1600000x1, .f32⟩
  | .hbm, ⟨4, _⟩ => ⟨S100000x20, .f32⟩
  | .hbm, ⟨5, _⟩ => ⟨S1024x128, .f32⟩
  | .hbm, ⟨6, _⟩ => ⟨S128, .f32⟩
  | .hbm, ⟨7, _⟩ => ⟨S128x3, .f32⟩
  | .hbm, ⟨8, _⟩ => ⟨S3, .f32⟩
  | .hbm, ⟨9, _⟩ => ⟨S100000x128, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x3, .f32⟩
  | .hbm, ⟨66, _⟩ => ⟨S100000, .i32⟩
  | .hbm, ⟨67, _⟩ => ⟨S1x1600000, .i32⟩
  | .hbm, ⟨68, _⟩ => ⟨S1600000, .i32⟩
  | .hbm, ⟨69, _⟩ => ⟨S1700000, .i32⟩
  | .hbm, ⟨70, _⟩ => ⟨S1x1600000, .i32⟩
  | .hbm, ⟨71, _⟩ => ⟨S1600000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S100000, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000, .f32⟩
  | .hbm, ⟨98, _⟩ => ⟨S1700000, .f32⟩
  | .hbm, ⟨99, _⟩ => ⟨S_, .i32⟩
  | .hbm, ⟨100, _⟩ => ⟨S1700000, .i32⟩
  | .hbm, ⟨101, _⟩ => ⟨S1700000, .i1⟩
  | .hbm, ⟨102, _⟩ => ⟨S_, .i32⟩
  | .hbm, ⟨103, _⟩ => ⟨S1700000, .i32⟩
  | .hbm, ⟨104, _⟩ => ⟨S1700000, .i32⟩
  | .hbm, ⟨105, _⟩ => ⟨S1700000, .i32⟩
  | .hbm, ⟨106, _⟩ => ⟨S1700000x1, .i32⟩
  | .hbm, ⟨107, _⟩ => ⟨S1700000x3, .f32⟩
  | .hbm, ⟨108, _⟩ => ⟨S1700000x1, .f32⟩
  | .hbm, ⟨109, _⟩ => ⟨S1700000x3, .f32⟩
  | .hbm, ⟨110, _⟩ => ⟨S1700000x3, .f32⟩
  | .hbm, ⟨111, _⟩ => ⟨S_, .f32⟩
  | .hbm, ⟨112, _⟩ => ⟨S100000x3, .f32⟩
  | .hbm, ⟨113, _⟩ => ⟨S1700000x1, .i32⟩
  | .hbm, ⟨114, _⟩ => ⟨S100000x3, .f32⟩
  | .hbm, ⟨115, _⟩ => ⟨S1x3, .f32⟩
  | .hbm, ⟨116, _⟩ => ⟨S100000x3, .f32⟩
  | .hbm, ⟨117, _⟩ => ⟨S100000x3, .f32⟩
  | _, _ => ⟨S100000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_9 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_11 : Ref sig .tc := ⟨.hbm, 89, rfl⟩
abbrev main_v65 : Ref sig .tc := ⟨.hbm, 90, rfl⟩
abbrev main_v66 : Ref sig .tc := ⟨.hbm, 91, rfl⟩
abbrev main_c_12 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_13 : Ref sig .tc := ⟨.hbm, 99, rfl⟩
abbrev main_v73 : Ref sig .tc := ⟨.hbm, 100, rfl⟩
abbrev main_v74 : Ref sig .tc := ⟨.hbm, 101, rfl⟩
abbrev main_c_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_15 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  dot_S100000x1024_S1024x128_S100000x128_1_0_0_1_n_n_wf : DotDims.WF S100000x1024 S1024x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x3_S100000x3_1_0_0_1_n_n_wf : DotDims.WF S100000x128 S128x3 S100000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1

variable [Facts₀]

def dot_S100000x1024_S1024x128_S100000x128_1_0_0_1_n_n : DotDims S100000x1024 S1024x128 S100000x128 where
  lhsContracting := [1]
  rhsContracting := [0]
  lhsNonContracting := [0]
  rhsNonContracting := [1]
  lhsBatch := []
  rhsBatch := []
  wf := dot_S100000x1024_S1024x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

class Facts : Prop extends Facts₀ where

variable [Facts]
-- ==== Proof.ResultRun.lean ====
/-
  The idealized kernel program's run with its RESULT buffer named.

  The program is two pipelined matrix products among stretches of host operations. Its frame run folds the
  buffer contents through the segments (launch contents, after the first stretch, after the first product's
  write-backs, after the middle stretches, after the second product's write-backs, after the last stretch);
  the final state holds every unscoped buffer at the last fold. Read at the result buffer, that is the value
  the later modules compute; read at the arguments, it is the launch contents.
-/
import proofs.«148395_j21981642620995_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    fold of the buffer contents read there, and each argument array ends as launched. -/
theorem run : θ_run defs (onTc (τ := τ) (main (F := F))) ⟨m, fun _ => 0, ρ⟩ (fun r => ∀ c : Dev nD,
      r.2.mem ((c.tc : Thread nD τ).loc main_v61) = W6 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v61 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.ResultRun

end
-- ==== Proof.FirstProduct.lean ====
/-
  The first pipelined product: rows of the feature array times the first weight array.

  The grid has 50 points. Point t loads rows 2000·t … 2000·t + 1999 of the left array (all 1024 columns) and the whole
  right array (1024 × 128), and stores their product as rows 2000·t … 2000·t + 1999 of the output. The narrowing of both
  operands to bf16 before the product is the identity on extended reals, and the product accumulates into a zero
  block, so entry (r, j) of the stored block is the sum over k of left(r, k) · right(k, j). The 50 row bands tile the
  100000 rows, so the output array ends as the whole product: entry (i, j) is the sum over k of left(i, k) · right(k, j).
-/
import proofs.«148395_j21981642620995_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.FirstProduct

open Cert.KernelIdeal Cert.KernelIdeal.Gen
open Idealize.ShloMosaic Idealize.ShloMosaic.TcCoe Idealize.SL.Sem
open Idealize.ShloMosaic.Pipeline (Dat)

/-! ## Index constructors over the literal shapes -/

/-- Entry (row of i, k) of the 100000 × 1024 left array. -/
def leftAt (i : S100000x128.Idx) (k : Fin 1024) : S100000x1024.Idx := fun a => match a with
  | ⟨0, _⟩ => ⟨(i 0).val, (i 0).isLt⟩
  | ⟨1, _⟩ => ⟨k.val, k.isLt⟩
/-- Entry (k, column of i) of the 1024 × 128 right array. -/
def rightAt (i : S100000x128.Idx) (k : Fin 1024) : S1024x128.Idx := fun a => match a with
  | ⟨0, _⟩ => ⟨k.val, k.isLt⟩
  | ⟨1, _⟩ => ⟨(i 1).val, (i 1).isLt⟩
/-- The same two inside one 2000-row band. -/
def leftIn (j : S2000x128.Idx) (k : Fin 1024) : S2000x1024.Idx := fun a => match a with
  | ⟨0, _⟩ => ⟨(j 0).val, (j 0).isLt⟩
  | ⟨1, _⟩ => ⟨k.val, k.isLt⟩
def rightIn (j : S2000x128.Idx) (k : Fin 1024) : S1024x128.Idx := fun a => match a with
  | ⟨0, _⟩ => ⟨k.val, k.isLt⟩
  | ⟨1, _⟩ => ⟨(j 1).val, (j 1).isLt⟩

/-- The whole product, entry by entry. -/
def product (a : Vec Ideal S100000x1024 .f32) (w : Vec Ideal S1024x128 .f32) : Vec Ideal S100000x128 .f32 :=
  fun i => ∑ k : Fin 1024, a (leftAt i k) * w (rightAt i k)

/-! ## One band's product at an entry -/

theorem lhs_row (j : S2000x128.Idx) (q : dot_S2000x1024_S1024x128_S2000x128_1_0_0_1_n_n.contr.Idx) : (dot_S2000x1024_S1024x128_S2000x128_1_0_0_1_n_n.lhsIdx j q 0).val = (j 0).val := by
  unfold DotDims.lhsIdx
  rw [dif_neg (show ¬(0 : Fin S2000x1024.rank) ∈ dot_S2000x1024_S1024x128_S2000x128_1_0_0_1_n_n.lhsBatch by decide), dif_pos (show (0 : Fin S2000x1024.rank) ∈ dot_S2000x1024_S1024x128_S2000x128_1_0_0_1_n_n.lhsNonContracting by decide)]
  rfl
theorem lhs_contr (j : S2000x128.Idx) (q : dot_S2000x1024_S1024x128_S2000x128_1_0_0_1_n_n.contr.Idx) : (dot_S2000x1024_S1024x128_S2000x128_1_0_0_1_n_n.lhsIdx j q 1).val = (q ⟨0, by decide⟩).val :=
  dot_S2000x1024_S1024x128_S2000x128_1_0_0_1_n_n.lhsIdx_val_of_single rfl j q
theorem rhs_contr (j : S2000x128.Idx) (q : dot_S2000x1024_S1024x128_S2000x128_1_0_0_1_n_n.contr.Idx) : (dot_S2000x1024_S1024x128_S2000x128_1_0_0_1_n_n.rhsIdx j q 0).val = (q ⟨0, by decide⟩).val :=
  dot_S2000x1024_S1024x128_S2000x128_1_0_0_1_n_n.rhsIdx_val_of_single rfl j q
theorem rhs_col (j : S2000x128.Idx) (q : dot_S2000x1024_S1024x128_S2000x128_1_0_0_1_n_n.contr.Idx) : (dot_S2000x1024_S1024x128_S2000x128_1_0_0_1_n_n.rhsIdx j q 1).val = (j 1).val := by
  unfold DotDims.rhsIdx
  rw [dif_neg (show ¬(1 : Fin S1024x128.rank) ∈ dot_S2000x1024_S1024x128_S2000x128_1_0_0_1_n_n.rhsBatch by decide), dif_pos (show (1 : Fin S1024x128.rank) ∈ dot_S2000x1024_S1024x128_S2000x128_1_0_0_1_n_n.rhsNonContracting by decide)]
  rfl

/-- The band's stored value at entry j is the sum over k of the loaded left block at (row of j, k) times the loaded
    right block at (k, column of j): the narrowing is the identity and the accumulator is zero. -/
theorem band_apply (x0 : Vec Ideal S2000x1024 .f32) (x1 : Vec Ideal S1024x128 .f32) (j : S2000x128.Idx) :
    k0_pay1 (F := Ideal) x0 x1 j = ∑ k : Fin 1024, x0 (leftIn j k) * x1 (rightIn j k) := by
  unfold k0_pay1
  simp only [matmul]
  rw [Ideal.matmul_constant_zero_apply, ← Equiv.sum_comp (ValueIdx.contrEquiv1 dot_S2000x1024_S1024x128_S2000x128_1_0_0_1_n_n 1024 rfl rfl).symm]
  refine Finset.sum_congr rfl fun k _ => ?_
  have hk := ValueIdx.contrEquiv1_symm_val dot_S2000x1024_S1024x128_S2000x128_1_0_0_1_n_n 1024 rfl rfl k
  have el : dot_S2000x1024_S1024x128_S2000x128_1_0_0_1_n_n.lhsIdx j ((ValueIdx.contrEquiv1 dot_S2000x1024_S1024x128_S2000x128_1_0_0_1_n_n 1024 rfl rfl).symm k) = leftIn j k := funext fun a => Fin.ext (by
    match a with
    | ⟨0, _⟩ => exact lhs_row _ _
    | ⟨1, _⟩ => exact (lhs_contr _ _).trans hk)
  have er : dot_S2000x1024_S1024x128_S2000x128_1_0_0_1_n_n.rhsIdx j ((ValueIdx.contrEquiv1 dot_S2000x1024_S1024x128_S2000x128_1_0_0_1_n_n 1024 rfl rfl).symm k) = rightIn j k := funext fun a => Fin.ext (by
    match a with
    | ⟨0, _⟩ => exact (rhs_contr _ _).trans hk
    | ⟨1, _⟩ => exact rhs_col _ _)
  rw [el, er]
  rfl

/-! ## From the bands to the array -/

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the left and output bands start at row block t, everything else at 0. -/
theorem band_position : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every row band is some point's. -/
theorem band_onto : ∀ q : Fin 50, ∃ t : Fin cfg0.N, win0_2.index t = ![q.val, 0] :=
  (by decide +kernel : ∀ q : Fin 50, ∃ t : Fin grid0.N, win0_2.index t = ![q.val, 0])

/-- What point t writes back is band t of the whole product of the arrays the region finds. -/
theorem written_back (c : Dev nD) (t : Fin cfg0.N) :
    (dat0 V c).flushed 2 t = ((cfg0.win 2).blk t).view.read (Elt Ideal) (product (V c main_arg0) (V c main_arg5)) := by
  show (cfg0.win 2).cut (grid0.coords t) ((dat0 V c).after 2 t) = _
  rw [after0_2]
  unfold out0_2
  rw [View.canon_unit_zero origin]
  simp only [View.ld_unit_zero (S := S2000x1024) origin, View.ld_unit_zero (S := S1024x128) origin]
  obtain ⟨e0, e1, e2, e3, e4⟩ := band_position t
  funext j
  refine (band_apply (iblk0 V c 0 t) (iblk0 V c 1 t) j).trans ?_
  show _ = product (V c main_arg0) (V c main_arg5) (((cfg0.win 2).blk t).view.emb j)
  unfold product
  refine Finset.sum_congr rfl fun k _ => ?_
  have h0 : ((cfg0.win 0).blk t).view.emb (leftIn j k) = leftAt (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 1024 + 1 * k.val = k.val; omega
  have h1 : ((cfg0.win 1).blk t).view.emb (rightIn j k) = rightAt (((cfg0.win 2).blk t).view.emb j) k := by
    funext a; apply Fin.ext
    match a with
    | ⟨0, _⟩ => show win0_1.index t (0 : Fin 2) * 1024 + 1 * k.val = k.val; omega
    | ⟨1, _⟩ => show win0_1.index t (1 : Fin 2) * 128 + 1 * (j 1).val = win0_2.index t (1 : Fin 2) * 128 + 1 * (j 1).val; omega
  have e0 : iblk0 V c 0 t (leftIn j k) = (V c main_arg0 : Vec Ideal S100000x1024 .f32) (leftAt (((cfg0.win 2).blk t).view.emb j) k) :=
    congrArg (V c main_arg0 : Vec Ideal S100000x1024 .f32) h0
  have e1 : iblk0 V c 1 t (rightIn j k) = (V c main_arg5 : Vec Ideal S1024x128 .f32) (rightAt (((cfg0.win 2).blk t).view.emb j) k) :=
    congrArg (V c main_arg5 : Vec Ideal S1024x128 .f32) h1
  rw [e0, e1]

/-- An entry of the output array lies in point t's band iff each coordinate lies in the band's range. -/
theorem in_band (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v27).slice (win0_2.rect t)).set ↔ _
  rw [View.set_slice_whole, Rect.mem_set_unit]
  exact Iff.rfl

/-- The bands cover the array: entry i lies in the band of point (row of i) / 2000. -/
theorem bands_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := band_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [in_band]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region is the whole product of the two arrays the region finds. -/
theorem result (c : Dev nD) :
    (dat0 V c).arrAt 2 cfg0.N = product (V c main_arg0) (V c main_arg5) :=
  (dat0 V c).arrAt_eq_of_cover 2 (product (V c main_arg0) (V c main_arg5)) (fun t _ => written_back V c t) bands_cover

end Cert.KernelIdeal.FirstProduct

end
-- ==== Proof.SecondProduct.lean ====
/-
  The second pipelined product: rows of the hidden array (after the first aggregation and the rectifier) times the
  second weight array.

  The grid has 20 points. Point t loads rows 5000·t … 5000·t + 4999 of the left array (all 128 columns) and the whole
  right array (128 × 3), and stores their product as rows 5000·t … 5000·t + 4999 of the output. The body first casts the
  left block to its own shape (the identity), narrows both operands to bf16 (the identity on extended reals) and
  accumulates into a zero block, so entry (r, j) of the stored block is the sum over k of left(r, k) · right(k, j).
  The 20 row bands tile the 100000 rows, so the output array ends as the whole product.
-/
import proofs.«148395_j21981642620995_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.SecondProduct

open Cert.KernelIdeal Cert.KernelIdeal.Gen
open Idealize.ShloMosaic Idealize.ShloMosaic.TcCoe Idealize.SL.Sem
open Idealize.ShloMosaic.Pipeline (Dat)

/-! ## Index constructors over the literal shapes -/

/-- Entry (row of i, k) of the 100000 × 128 left array. -/
def leftAt (i : S100000x3.Idx) (k : Fin 128) : S100000x128.Idx := fun a => match a with
  | ⟨0, _⟩ => ⟨(i 0).val, (i 0).isLt⟩
  | ⟨1, _⟩ => ⟨k.val, k.isLt⟩
/-- Entry (k, column of i) of the 128 × 3 right array. -/
def rightAt (i : S100000x3.Idx) (k : Fin 128) : S128x3.Idx := fun a => match a with
  | ⟨0, _⟩ => ⟨k.val, k.isLt⟩
  | ⟨1, _⟩ => ⟨(i 1).val, (i 1).isLt⟩
/-- The same two inside one 5000-row band. -/
def leftIn (j : S5000x3.Idx) (k : Fin 128) : S5000x128.Idx := fun a => match a with
  | ⟨0, _⟩ => ⟨(j 0).val, (j 0).isLt⟩
  | ⟨1, _⟩ => ⟨k.val, k.isLt⟩
def rightIn (j : S5000x3.Idx) (k : Fin 128) : S128x3.Idx := fun a => match a with
  | ⟨0, _⟩ => ⟨k.val, k.isLt⟩
  | ⟨1, _⟩ => ⟨(j 1).val, (j 1).isLt⟩

/-- The whole product, entry by entry. -/
def product (a : Vec Ideal S100000x128 .f32) (w : Vec Ideal S128x3 .f32) : Vec Ideal S100000x3 .f32 :=
  fun i => ∑ k : Fin 128, a (leftAt i k) * w (rightAt i k)

/-! ## One band's product at an entry -/

theorem lhs_row (j : S5000x3.Idx) (q : dot_S5000x128_S128x3_S5000x3_1_0_0_1_n_n.contr.Idx) : (dot_S5000x128_S128x3_S5000x3_1_0_0_1_n_n.lhsIdx j q 0).val = (j 0).val := by
  unfold DotDims.lhsIdx
  rw [dif_neg (show ¬(0 : Fin S5000x128.rank) ∈ dot_S5000x128_S128x3_S5000x3_1_0_0_1_n_n.lhsBatch by decide), dif_pos (show (0 : Fin S5000x128.rank) ∈ dot_S5000x128_S128x3_S5000x3_1_0_0_1_n_n.lhsNonContracting by decide)]
  rfl
theorem lhs_contr (j : S5000x3.Idx) (q : dot_S5000x128_S128x3_S5000x3_1_0_0_1_n_n.contr.Idx) : (dot_S5000x128_S128x3_S5000x3_1_0_0_1_n_n.lhsIdx j q 1).val = (q ⟨0, by decide⟩).val :=
  dot_S5000x128_S128x3_S5000x3_1_0_0_1_n_n.lhsIdx_val_of_single rfl j q
theorem rhs_contr (j : S5000x3.Idx) (q : dot_S5000x128_S128x3_S5000x3_1_0_0_1_n_n.contr.Idx) : (dot_S5000x128_S128x3_S5000x3_1_0_0_1_n_n.rhsIdx j q 0).val = (q ⟨0, by decide⟩).val :=
  dot_S5000x128_S128x3_S5000x3_1_0_0_1_n_n.rhsIdx_val_of_single rfl j q
theorem rhs_col (j : S5000x3.Idx) (q : dot_S5000x128_S128x3_S5000x3_1_0_0_1_n_n.contr.Idx) : (dot_S5000x128_S128x3_S5000x3_1_0_0_1_n_n.rhsIdx j q 1).val = (j 1).val := by
  unfold DotDims.rhsIdx
  rw [dif_neg (show ¬(1 : Fin S128x3.rank) ∈ dot_S5000x128_S128x3_S5000x3_1_0_0_1_n_n.rhsBatch by decide), dif_pos (show (1 : Fin S128x3.rank) ∈ dot_S5000x128_S128x3_S5000x3_1_0_0_1_n_n.rhsNonContracting by decide)]
  rfl

/-- The band's stored value at entry j is the sum over k of the loaded left block at (row of j, k) times the loaded
    right block at (k, column of j): the cast to the block's own shape and the narrowing are identities and the accumulator is zero. -/
theorem band_apply (x0 : Vec Ideal S5000x128 .f32) (x1 : Vec Ideal S128x3 .f32) (j : S5000x3.Idx) :
    k1_pay1 (F := Ideal) x0 x1 j = ∑ k : Fin 128, x0 (leftIn j k) * x1 (rightIn j k) := by
  unfold k1_pay1
  simp only [matmul, shapeCast_self]
  rw [Ideal.matmul_constant_zero_apply, ← Equiv.sum_comp (ValueIdx.contrEquiv1 dot_S5000x128_S128x3_S5000x3_1_0_0_1_n_n 128 rfl rfl).symm]
  refine Finset.sum_congr rfl fun k _ => ?_
  have hk := ValueIdx.contrEquiv1_symm_val dot_S5000x128_S128x3_S5000x3_1_0_0_1_n_n 128 rfl rfl k
  have el : dot_S5000x128_S128x3_S5000x3_1_0_0_1_n_n.lhsIdx j ((ValueIdx.contrEquiv1 dot_S5000x128_S128x3_S5000x3_1_0_0_1_n_n 128 rfl rfl).symm k) = leftIn j k := funext fun a => Fin.ext (by
    match a with
    | ⟨0, _⟩ => exact lhs_row _ _
    | ⟨1, _⟩ => exact (lhs_contr _ _).trans hk)
  have er : dot_S5000x128_S128x3_S5000x3_1_0_0_1_n_n.rhsIdx j ((ValueIdx.contrEquiv1 dot_S5000x128_S128x3_S5000x3_1_0_0_1_n_n 128 rfl rfl).symm k) = rightIn j k := funext fun a => Fin.ext (by
    match a with
    | ⟨0, _⟩ => exact (rhs_contr _ _).trans hk
    | ⟨1, _⟩ => exact rhs_col _ _)
  rw [el, er]
  rfl

/-! ## From the bands to the array -/

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the left and output bands start at row block t, everything else at 0. -/
theorem band_position : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every row band is some point's. -/
theorem band_onto : ∀ q : Fin 20, ∃ t : Fin cfg1.N, win1_2.index t = ![q.val, 0] :=
  (by decide +kernel : ∀ q : Fin 20, ∃ t : Fin grid1.N, win1_2.index t = ![q.val, 0])

/-- What point t writes back is band t of the whole product of the arrays the region finds. -/
theorem written_back (c : Dev nD) (t : Fin cfg1.N) :
    (dat1 V c).flushed 2 t = ((cfg1.win 2).blk t).view.read (Elt Ideal) (product (V c main_v44) (V c main_arg7)) := by
  show (cfg1.win 2).cut (grid1.coords t) ((dat1 V c).after 2 t) = _
  rw [after1_2]
  unfold out1_2
  rw [View.canon_unit_zero origin]
  simp only [View.ld_unit_zero (S := S5000x128) origin, View.ld_unit_zero (S := S128x3) origin]
  obtain ⟨e0, e1, e2, e3, e4⟩ := band_position t
  funext j
  refine (band_apply (iblk1 V c 0 t) (iblk1 V c 1 t) j).trans ?_
  show _ = product (V c main_v44) (V c main_arg7) (((cfg1.win 2).blk t).view.emb j)
  unfold product
  refine Finset.sum_congr rfl fun k _ => ?_
  have h0 : ((cfg1.win 0).blk t).view.emb (leftIn j k) = leftAt (((cfg1.win 2).blk t).view.emb j) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : ((cfg1.win 1).blk t).view.emb (rightIn j k) = rightAt (((cfg1.win 2).blk t).view.emb j) k := by
    funext a; apply Fin.ext
    match a with
    | ⟨0, _⟩ => show win1_1.index t (0 : Fin 2) * 128 + 1 * k.val = k.val; omega
    | ⟨1, _⟩ => show win1_1.index t (1 : Fin 2) * 3 + 1 * (j 1).val = win1_2.index t (1 : Fin 2) * 3 + 1 * (j 1).val; omega
  have e0 : iblk1 V c 0 t (leftIn j k) = (V c main_v44 : Vec Ideal S100000x128 .f32) (leftAt (((cfg1.win 2).blk t).view.emb j) k) :=
    congrArg (V c main_v44 : Vec Ideal S100000x128 .f32) h0
  have e1 : iblk1 V c 1 t (rightIn j k) = (V c main_arg7 : Vec Ideal S128x3 .f32) (rightAt (((cfg1.win 2).blk t).view.emb j) k) :=
    congrArg (V c main_arg7 : Vec Ideal S128x3 .f32) h1
  rw [e0, e1]

/-- An entry of the output array lies in point t's band iff each coordinate lies in the band's range. -/
theorem in_band (t : Fin cfg1.N) (i : S100000x3.Idx) :
    i ∈ ((cfg1.win 2).blk t).view.set ↔ ∀ a : Fin 2, win1_2.index t a * S5000x3.size a ≤ (i a).val ∧ (i a).val < win1_2.index t a * S5000x3.size a + S5000x3.size a := by
  show i ∈ ((View.whole main_v45).slice (win1_2.rect t)).set ↔ _
  rw [View.set_slice_whole, Rect.mem_set_unit]
  exact Iff.rfl

/-- The bands cover the array: entry i lies in the band of point (row of i) / 5000. -/
theorem bands_cover (i : S100000x3.Idx) :
    ∃ t : Fin cfg1.N, (cfg1.win 2).flush t = true ∧ i ∈ ((cfg1.win 2).blk t).view.set := by
  have hi0 : (i 0).val < 100000 := (i 0).isLt
  have hi1 : (i 1).val < 3 := (i 1).isLt
  obtain ⟨t, ht⟩ := band_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [in_band]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 3 ≤ (i 1).val ∧ (i 1).val < win1_2.index t (1 : Fin 2) * 3 + 3; omega

/-- The output array after the region is the whole product of the two arrays the region finds. -/
theorem result (c : Dev nD) :
    (dat1 V c).arrAt 2 cfg1.N = product (V c main_v44) (V c main_arg7) :=
  (dat1 V c).arrAt_eq_of_cover 2 (product (V c main_v44) (V c main_arg7)) (fun t _ => written_back V c t) bands_cover

end Cert.KernelIdeal.SecondProduct

end
-- ==== Proof.FoldEntry.lean ====
/-
  The buffer contents of the idealized kernel program when its first pipelined product is entered, read as the reference's stages.

  Both programs compute two rounds of degree-normalised aggregation over the same edge list with self loops: project
  the node rows by a weight array, gather the projected rows at the edges' source nodes, scale each by the product of
  the inverse square roots of the two endpoints' degrees, add them up at the destination nodes, add the bias (and,
  after the first round, clamp at zero from below). The kernel program computes the edge endpoints and the
  normalisation once, before its first pipelined product, and keeps them in buffers that no later operation writes;
  the reference recomputes them before its second round by the same operations of the same argument. The kernel's two
  projections are the pipelined products, whose output arrays are the whole products (the two product modules); the
  reference's are host products, which at exact arithmetic are the same sums. Everything else is the same operation
  on both sides, so stage by stage the kernel program's buffers hold the reference's stage values.
-/
import proofs.«148395_j21981642620995_1_alg».proof.Proof.Gen.KernelIdeal.Frame
import proofs.«148395_j21981642620995_1_alg».proof.Proof.Gen.ReferenceIdeal.Read
import proofs.«148395_j21981642620995_1_alg».proof.Proof.FirstProduct
import proofs.«148395_j21981642620995_1_alg».proof.Proof.SecondProduct
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The host products are the sums the pipelined products leave -/

/-- The first whole product is the reference's first host product: the same sum over the 1024 contracted entries. -/
theorem first_product_eq (a : Vec Ideal S100000x1024 .f32) (w : Vec Ideal S1024x128 .f32) :
    FirstProduct.product a w = Cert.ReferenceIdeal.Read.val_main_v0 (F := Ideal) a w := by
  funext i
  refine Eq.trans ?_ (Cert.ReferenceIdeal.Read.val_main_v0_apply a w i).symm
  unfold FirstProduct.product
  refine Finset.sum_congr rfl fun k _ => ?_
  have hl : FirstProduct.leftAt i k = Cert.ReferenceIdeal.Read.lidx_main_v0 i k := funext fun a => by
    match a with
    | ⟨0, _⟩ => rfl
    | ⟨1, _⟩ => rfl
  have hr : FirstProduct.rightAt i k = Cert.ReferenceIdeal.Read.ridx_main_v0 i k := funext fun a => by
    match a with
    | ⟨0, _⟩ => rfl
    | ⟨1, _⟩ => rfl
  rw [hl, hr]

/-! ## Before the first product: the edge endpoints and the normalisation, from the edge list -/

theorem entry_arg0 : W1 m ρ c (Proc.devRef .tc main_arg0) = m ((c : Thread nD τ).loc main_arg0) := by
  show StableHlo.after hostOps0 (W0 m ρ c) (Proc.devRef .tc main_arg0) = _
  after_results_simp <;> rfl
theorem entry_arg5 : W1 m ρ c (Proc.devRef .tc main_arg5) = m ((c : Thread nD τ).loc main_arg5) := by
  show StableHlo.after hostOps0 (W0 m ρ c) (Proc.devRef .tc main_arg5) = _
  after_results_simp <;> rfl
theorem entry_arg6 : W1 m ρ c (Proc.devRef .tc main_arg6) = m ((c : Thread nD τ).loc main_arg6) := by
  show StableHlo.after hostOps0 (W0 m ρ c) (Proc.devRef .tc main_arg6) = _
  after_results_simp <;> rfl
theorem entry_arg7 : W1 m ρ c (Proc.devRef .tc main_arg7) = m ((c : Thread nD τ).loc main_arg7) := by
  show StableHlo.after hostOps0 (W0 m ρ c) (Proc.devRef .tc main_arg7) = _
  after_results_simp <;> rfl
theorem entry_arg8 : W1 m ρ c (Proc.devRef .tc main_arg8) = m ((c : Thread nD τ).loc main_arg8) := by
  show StableHlo.after hostOps0 (W0 m ρ c) (Proc.devRef .tc main_arg8) = _
  after_results_simp <;> rfl

/-- The source endpoint of every edge, then every node itself. -/
theorem entry_sources : W1 m ρ c (Proc.devRef .tc main_v5) = Cert.ReferenceIdeal.Read.val_main_v4 (F := Ideal) (m ((c : Thread nD τ).loc main_arg2)) := by
  show StableHlo.after hostOps0 (W0 m ρ c) (Proc.devRef .tc main_v5) = _
  after_results_simp
  rfl
/-- The destination endpoint of every edge, then every node itself. -/
theorem entry_targets : W1 m ρ c (Proc.devRef .tc main_v6) = Cert.ReferenceIdeal.Read.val_main_v7 (F := Ideal) (m ((c : Thread nD τ).loc main_arg2)) := by
  show StableHlo.after hostOps0 (W0 m ρ c) (Proc.devRef .tc main_v6) = _
  after_results_simp
  rfl
/-- Per edge, the product of the inverse square roots of its two endpoints' degrees. -/
theorem entry_norm : W1 m ρ c (Proc.devRef .tc main_v26) = Cert.ReferenceIdeal.Read.val_main_v27 (F := Ideal) (m ((c : Thread nD τ).loc main_arg2)) := by
  show StableHlo.after hostOps0 (W0 m ρ c) (Proc.devRef .tc main_v26) = _
  after_results_simp
  rfl

end Cert.KernelIdeal.Fold

end
-- ==== Proof.Fold.lean ====
/-
  The buffer contents at the later segment boundaries of the idealized kernel program, read as the reference's stages.

  Both programs compute two rounds of degree-normalised aggregation over the same edge list with self loops: project
  the node rows by a weight array, gather the projected rows at the edges' source nodes, scale each by the product of
  the inverse square roots of the two endpoints' degrees, add them up at the destination nodes, add the bias (and,
  after the first round, clamp at zero from below). The kernel program computes the edge endpoints and the
  normalisation once, before its first pipelined product, and keeps them in buffers that no later operation writes;
  the reference recomputes them before its second round by the same operations of the same argument. The kernel's two
  projections are the pipelined products, whose output arrays are the whole products; the reference's are host
  products, which at exact arithmetic are the same sums. Everything else is the same operation on both sides, so
  stage by stage the kernel program's buffers hold the reference's stage values. Each host stretch is read as a
  function of the few buffers it reads, for arbitrary buffer contents, and only then placed at its boundary.
-/
import proofs.«148395_j21981642620995_1_alg».proof.Proof.FoldEntry
import Idealize.ShloMosaic.Lib.StableHlo.Run
set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The first product's output array -/

/-- After the first pipelined product its output array holds the reference's first projection. -/
theorem after_first : W2 m ρ c (Proc.devRef .tc main_v27) = Cert.ReferenceIdeal.Read.val_main_v0 (F := Ideal) (m ((c : Thread nD τ).loc main_arg0)) (m ((c : Thread nD τ).loc main_arg5)) := by
  refine (W2_arr m ρ c 2).trans ?_
  refine (FirstProduct.result (V1 m ρ) c).trans ?_
  refine (first_product_eq _ _).trans ?_
  show Cert.ReferenceIdeal.Read.val_main_v0 (F := Ideal) (W1 m ρ c (Proc.devRef .tc main_arg0)) (W1 m ρ c (Proc.devRef .tc main_arg5)) = _
  rw [entry_arg0, entry_arg5]

/-! ## What the first product leaves alone -/

theorem kept2_main_v5 : W2 m ρ c (Proc.devRef .tc main_v5) = W1 m ρ c (Proc.devRef .tc main_v5) := W2_of_ne m ρ c main_v5 (by decide)
theorem kept2_main_v6 : W2 m ρ c (Proc.devRef .tc main_v6) = W1 m ρ c (Proc.devRef .tc main_v6) := W2_of_ne m ρ c main_v6 (by decide)
theorem kept2_main_v26 : W2 m ρ c (Proc.devRef .tc main_v26) = W1 m ρ c (Proc.devRef .tc main_v26) := W2_of_ne m ρ c main_v26 (by decide)
theorem kept2_main_arg6 : W2 m ρ c (Proc.devRef .tc main_arg6) = W1 m ρ c (Proc.devRef .tc main_arg6) := W2_of_ne m ρ c main_arg6 (by decide)
theorem kept2_main_arg7 : W2 m ρ c (Proc.devRef .tc main_arg7) = W1 m ρ c (Proc.devRef .tc main_arg7) := W2_of_ne m ρ c main_arg7 (by decide)
theorem kept2_main_arg8 : W2 m ρ c (Proc.devRef .tc main_arg8) = W1 m ρ c (Proc.devRef .tc main_arg8) := W2_of_ne m ρ c main_arg8 (by decide)

/-! ## The first aggregation, the bias and the clamp at zero -/

/-- One round's host stretch after a product, before the clamp: gather the projected rows at the (wrapped) source
    nodes, scale each by its edge's normalisation, add them up at the destination nodes onto zeros, add the bias
    along the rows. -/
def roundOf128 (h : (⟨S100000x128, .f32⟩ : BufTy).Contents (Elt Ideal)) (src dst : (⟨S1700000, .i32⟩ : BufTy).Contents (Elt Ideal)) (nrm : (⟨S1700000, .f32⟩ : BufTy).Contents (Elt Ideal)) (b : (⟨S128, .f32⟩ : BufTy).Contents (Elt Ideal)) :
    (⟨S100000x128, .f32⟩ : BufTy).Contents (Elt Ideal) :=
  addf
    (Host.scatterAdd scatter_S100000x128_S1700000x1_S1700000x128_1_0_0_1
      (broadcastInDim S100000x128 ![] bcast_S_S100000x128 (constant (F := Ideal) S_ .f32 0x00000000#32))
      (broadcastInDim S1700000x1 ![0] bcast_S1700000_S1700000x1_0 dst)
      (mulf
        (Host.gather gather_S100000x128_S1700000x1_S1700000x128_1_0_n_n_0_1_1128 h
          (broadcastInDim S1700000x1 ![0] bcast_S1700000_S1700000x1_0 (select (cmpi .slt src (broadcastInDim S1700000 ![] bcast_S_S1700000 (constantI S_ 32 0#32))) (addi src (broadcastInDim S1700000 ![] bcast_S_S1700000 (constantI S_ 32 100000#32))) src)))
        (broadcastInDim S1700000x128 ![0, 1] bcast_S1700000x1_S1700000x128_0_1
          (broadcastInDim S1700000x1 ![0] bcast_S1700000_S1700000x1_0 nrm))))
    (broadcastInDim S100000x128 ![0, 1] bcast_S1x128_S100000x128_0_1 (broadcastInDim S1x128 ![1] bcast_S128_S1x128_1 b))

/-- The same followed by the clamp at zero from below. -/
def hiddenOf (h : (⟨S100000x128, .f32⟩ : BufTy).Contents (Elt Ideal)) (src dst : (⟨S1700000, .i32⟩ : BufTy).Contents (Elt Ideal)) (nrm : (⟨S1700000, .f32⟩ : BufTy).Contents (Elt Ideal)) (b : (⟨S128, .f32⟩ : BufTy).Contents (Elt Ideal)) :
    (⟨S100000x128, .f32⟩ : BufTy).Contents (Elt Ideal) :=
  maximumf (roundOf128 h src dst nrm b) (broadcastInDim S100000x128 ![] bcast_S_S100000x128 (constant (F := Ideal) S_ .f32 0x00000000#32))

/-- The stretch after the first product, read off any buffer contents: its last buffer is the round of the five
    buffers it reads. -/
theorem round_read (U : Valuation τ sig (Elt Ideal)) :
    StableHlo.after hostOps1 U (Proc.devRef .tc main_v43)
      = roundOf128 (U (Proc.devRef .tc main_v27)) (U (Proc.devRef .tc main_v5)) (U (Proc.devRef .tc main_v6)) (U (Proc.devRef .tc main_v26)) (U (Proc.devRef .tc main_arg6)) := by
  after_results_simp
  rfl

/-- The clamp's three operations, read off any buffer contents. -/
theorem clamp_read (U : Valuation τ sig (Elt Ideal)) :
    StableHlo.after hostOps1_1 U (Proc.devRef .tc main_v44)
      = maximumf (U (Proc.devRef .tc main_v43)) (broadcastInDim S100000x128 ![] bcast_S_S100000x128 (constant (F := Ideal) S_ .f32 0x00000000#32)) := by
  after_results_simp
  rfl

/-- The two stretches between the products, one after the other. -/
theorem hidden_read (U : Valuation τ sig (Elt Ideal)) :
    StableHlo.after hostOps1_1 (StableHlo.after hostOps1 U) (Proc.devRef .tc main_v44)
      = hiddenOf (U (Proc.devRef .tc main_v27)) (U (Proc.devRef .tc main_v5)) (U (Proc.devRef .tc main_v6)) (U (Proc.devRef .tc main_v26)) (U (Proc.devRef .tc main_arg6)) :=
  (clamp_read (StableHlo.after hostOps1 U)).trans
    (congrArg (fun x => maximumf x (broadcastInDim S100000x128 ![] bcast_S_S100000x128 (constant (F := Ideal) S_ .f32 0x00000000#32))) (round_read U))

/-- On the reference's stage values it is the reference's hidden array: the same operations in the same order. -/
theorem hidden_spec (x0 : (⟨S100000x1024, .f32⟩ : BufTy).Contents (Elt Ideal)) (x2 : (⟨S2x1600000, .i32⟩ : BufTy).Contents (Elt Ideal)) (x5 : (⟨S1024x128, .f32⟩ : BufTy).Contents (Elt Ideal)) (x6 : (⟨S128, .f32⟩ : BufTy).Contents (Elt Ideal)) :
    hiddenOf (Cert.ReferenceIdeal.Read.val_main_v0 (F := Ideal) x0 x5) (Cert.ReferenceIdeal.Read.val_main_v4 (F := Ideal) x2) (Cert.ReferenceIdeal.Read.val_main_v7 (F := Ideal) x2) (Cert.ReferenceIdeal.Read.val_main_v27 (F := Ideal) x2) x6
      = Cert.ReferenceIdeal.Read.val_main_v44 (F := Ideal) x0 x2 x5 x6 := rfl

theorem hiddenOf_congr {h h' : (⟨S100000x128, .f32⟩ : BufTy).Contents (Elt Ideal)} {s s' d d' : (⟨S1700000, .i32⟩ : BufTy).Contents (Elt Ideal)} {n n' : (⟨S1700000, .f32⟩ : BufTy).Contents (Elt Ideal)} {b b' : (⟨S128, .f32⟩ : BufTy).Contents (Elt Ideal)}
    (eh : h = h') (es : s = s') (ed : d = d') (en : n = n') (eb : b = b') : hiddenOf h s d n b = hiddenOf h' s' d' n' b' := by
  subst eh es ed en eb; rfl

/-- Before the second pipelined product its left operand holds the reference's hidden array. -/
theorem hidden : W4 m ρ c (Proc.devRef .tc main_v44) = Cert.ReferenceIdeal.Read.val_main_v44 (F := Ideal) (m ((c : Thread nD τ).loc main_arg0)) (m ((c : Thread nD τ).loc main_arg2)) (m ((c : Thread nD τ).loc main_arg5)) (m ((c : Thread nD τ).loc main_arg6)) :=
  (hidden_read (W2 m ρ c)).trans ((hiddenOf_congr (after_first m ρ c)
    ((kept2_main_v5 m ρ c).trans (entry_sources m ρ c)) ((kept2_main_v6 m ρ c).trans (entry_targets m ρ c))
    ((kept2_main_v26 m ρ c).trans (entry_norm m ρ c)) ((kept2_main_arg6 m ρ c).trans (entry_arg6 m ρ c))).trans
    (hidden_spec _ _ _ _))

/-! ## What the middle stretches leave alone -/

theorem between_main_v5 (U : Valuation τ sig (Elt Ideal)) :
    StableHlo.after hostOps1_1 (StableHlo.after hostOps1 U) (Proc.devRef .tc main_v5) = U (Proc.devRef .tc main_v5) := by
  after_results_simp
theorem kept4_main_v5 : W4 m ρ c (Proc.devRef .tc main_v5) = W1 m ρ c (Proc.devRef .tc main_v5) :=
  (between_main_v5 (W2 m ρ c)).trans (kept2_main_v5 m ρ c)
theorem between_main_v6 (U : Valuation τ sig (Elt Ideal)) :
    StableHlo.after hostOps1_1 (StableHlo.after hostOps1 U) (Proc.devRef .tc main_v6) = U (Proc.devRef .tc main_v6) := by
  after_results_simp
theorem kept4_main_v6 : W4 m ρ c (Proc.devRef .tc main_v6) = W1 m ρ c (Proc.devRef .tc main_v6) :=
  (between_main_v6 (W2 m ρ c)).trans (kept2_main_v6 m ρ c)
theorem between_main_v26 (U : Valuation τ sig (Elt Ideal)) :
    StableHlo.after hostOps1_1 (StableHlo.after hostOps1 U) (Proc.devRef .tc main_v26) = U (Proc.devRef .tc main_v26) := by
  after_results_simp
theorem kept4_main_v26 : W4 m ρ c (Proc.devRef .tc main_v26) = W1 m ρ c (Proc.devRef .tc main_v26) :=
  (between_main_v26 (W2 m ρ c)).trans (kept2_main_v26 m ρ c)
theorem between_main_arg7 (U : Valuation τ sig (Elt Ideal)) :
    StableHlo.after hostOps1_1 (StableHlo.after hostOps1 U) (Proc.devRef .tc main_arg7) = U (Proc.devRef .tc main_arg7) := by
  after_results_simp
theorem kept4_main_arg7 : W4 m ρ c (Proc.devRef .tc main_arg7) = W1 m ρ c (Proc.devRef .tc main_arg7) :=
  (between_main_arg7 (W2 m ρ c)).trans (kept2_main_arg7 m ρ c)
theorem between_main_arg8 (U : Valuation τ sig (Elt Ideal)) :
    StableHlo.after hostOps1_1 (StableHlo.after hostOps1 U) (Proc.devRef .tc main_arg8) = U (Proc.devRef .tc main_arg8) := by
  after_results_simp
theorem kept4_main_arg8 : W4 m ρ c (Proc.devRef .tc main_arg8) = W1 m ρ c (Proc.devRef .tc main_arg8) :=
  (between_main_arg8 (W2 m ρ c)).trans (kept2_main_arg8 m ρ c)
/-! ## The second product's output array -/

/-- The second whole product is the reference's second host product: the same sum over the 128 contracted entries. -/
theorem second_product_eq (x0 : (⟨S100000x1024, .f32⟩ : BufTy).Contents (Elt Ideal)) (x2 : (⟨S2x1600000, .i32⟩ : BufTy).Contents (Elt Ideal)) (x5 : (⟨S1024x128, .f32⟩ : BufTy).Contents (Elt Ideal)) (x6 : (⟨S128, .f32⟩ : BufTy).Contents (Elt Ideal)) (w : (⟨S128x3, .f32⟩ : BufTy).Contents (Elt Ideal)) :
    SecondProduct.product (Cert.ReferenceIdeal.Read.val_main_v44 (F := Ideal) x0 x2 x5 x6) w = Cert.ReferenceIdeal.Read.val_main_v45 (F := Ideal) x0 x2 x5 x6 w := by
  funext i
  refine Eq.trans ?_ (Cert.ReferenceIdeal.Read.val_main_v45_apply x0 x2 x5 x6 w i).symm
  unfold SecondProduct.product
  refine Finset.sum_congr rfl fun k _ => ?_
  have hl : SecondProduct.leftAt i k = Cert.ReferenceIdeal.Read.lidx_main_v45 i k := funext fun a => by
    match a with
    | ⟨0, _⟩ => rfl
    | ⟨1, _⟩ => rfl
  have hr : SecondProduct.rightAt i k = Cert.ReferenceIdeal.Read.ridx_main_v45 i k := funext fun a => by
    match a with
    | ⟨0, _⟩ => rfl
    | ⟨1, _⟩ => rfl
  rw [hl, hr]

/-- After the second pipelined product its output array holds the reference's second projection. -/
theorem after_second : W5 m ρ c (Proc.devRef .tc main_v45) = Cert.ReferenceIdeal.Read.val_main_v45 (F := Ideal) (m ((c : Thread nD τ).loc main_arg0)) (m ((c : Thread nD τ).loc main_arg2)) (m ((c : Thread nD τ).loc main_arg5)) (m ((c : Thread nD τ).loc main_arg6)) (m ((c : Thread nD τ).loc main_arg7)) := by
  refine (W5_arr m ρ c 2).trans ?_
  refine (SecondProduct.result (V4 m ρ) c).trans ?_
  refine Eq.trans ?_ (second_product_eq (m ((c : Thread nD τ).loc main_arg0)) (m ((c : Thread nD τ).loc main_arg2)) (m ((c : Thread nD τ).loc main_arg5)) (m ((c : Thread nD τ).loc main_arg6)) (m ((c : Thread nD τ).loc main_arg7)))
  exact congrArg₂ SecondProduct.product (hidden m ρ c) ((kept4_main_arg7 m ρ c).trans (entry_arg7 m ρ c))

/-! ## What the second product leaves alone -/

theorem kept5_main_v5 : W5 m ρ c (Proc.devRef .tc main_v5) = W1 m ρ c (Proc.devRef .tc main_v5) :=
  (W5_of_ne m ρ c main_v5 (by decide)).trans (kept4_main_v5 m ρ c)
theorem kept5_main_v6 : W5 m ρ c (Proc.devRef .tc main_v6) = W1 m ρ c (Proc.devRef .tc main_v6) :=
  (W5_of_ne m ρ c main_v6 (by decide)).trans (kept4_main_v6 m ρ c)
theorem kept5_main_v26 : W5 m ρ c (Proc.devRef .tc main_v26) = W1 m ρ c (Proc.devRef .tc main_v26) :=
  (W5_of_ne m ρ c main_v26 (by decide)).trans (kept4_main_v26 m ρ c)
theorem kept5_main_arg8 : W5 m ρ c (Proc.devRef .tc main_arg8) = W1 m ρ c (Proc.devRef .tc main_arg8) :=
  (W5_of_ne m ρ c main_arg8 (by decide)).trans (kept4_main_arg8 m ρ c)

/-! ## The second aggregation and the bias: the result -/

/-- The last host stretch, as a function of the buffers it reads: the same round on the 3-column projection, without
    the clamp. -/
def resultOf (h : (⟨S100000x3, .f32⟩ : BufTy).Contents (Elt Ideal)) (src dst : (⟨S1700000, .i32⟩ : BufTy).Contents (Elt Ideal)) (nrm : (⟨S1700000, .f32⟩ : BufTy).Contents (Elt Ideal)) (b : (⟨S3, .f32⟩ : BufTy).Contents (Elt Ideal)) :
    (⟨S100000x3, .f32⟩ : BufTy).Contents (Elt Ideal) :=
  addf
    (Host.scatterAdd scatter_S100000x3_S1700000x1_S1700000x3_1_0_0_1
      (broadcastInDim S100000x3 ![] bcast_S_S100000x3 (constant (F := Ideal) S_ .f32 0x00000000#32))
      (broadcastInDim S1700000x1 ![0] bcast_S1700000_S1700000x1_0 dst)
      (mulf
        (Host.gather gather_S100000x3_S1700000x1_S1700000x3_1_0_n_n_0_1_13 h
          (broadcastInDim S1700000x1 ![0] bcast_S1700000_S1700000x1_0 (select (cmpi .slt src (broadcastInDim S1700000 ![] bcast_S_S1700000 (constantI S_ 32 0#32))) (addi src (broadcastInDim S1700000 ![] bcast_S_S1700000 (constantI S_ 32 100000#32))) src)))
        (broadcastInDim S1700000x3 ![0, 1] bcast_S1700000x1_S1700000x3_0_1
          (broadcastInDim S1700000x1 ![0] bcast_S1700000_S1700000x1_0 nrm))))
    (broadcastInDim S100000x3 ![0, 1] bcast_S1x3_S100000x3_0_1 (broadcastInDim S1x3 ![1] bcast_S3_S1x3_1 b))

/-- The last stretch, read off any buffer contents: the result buffer is that function of the five buffers it reads. -/
theorem result_read (U : Valuation τ sig (Elt Ideal)) :
    StableHlo.after hostOps2 U (Proc.devRef .tc main_v61)
      = resultOf (U (Proc.devRef .tc main_v45)) (U (Proc.devRef .tc main_v5)) (U (Proc.devRef .tc main_v6)) (U (Proc.devRef .tc main_v26)) (U (Proc.devRef .tc main_arg8)) := by
  after_results_simp
  rfl

/-- On the reference's stage values it is the reference's result; the reference recomputes the endpoints and the
    normalisation for its second round by the same operations of the same edge list. -/
theorem result_spec (x0 : (⟨S100000x1024, .f32⟩ : BufTy).Contents (Elt Ideal)) (x2 : (⟨S2x1600000, .i32⟩ : BufTy).Contents (Elt Ideal)) (x5 : (⟨S1024x128, .f32⟩ : BufTy).Contents (Elt Ideal)) (x6 : (⟨S128, .f32⟩ : BufTy).Contents (Elt Ideal)) (x7 : (⟨S128x3, .f32⟩ : BufTy).Contents (Elt Ideal)) (x8 : (⟨S3, .f32⟩ : BufTy).Contents (Elt Ideal)) :
    resultOf (Cert.ReferenceIdeal.Read.val_main_v45 (F := Ideal) x0 x2 x5 x6 x7) (Cert.ReferenceIdeal.Read.val_main_v4 (F := Ideal) x2) (Cert.ReferenceIdeal.Read.val_main_v7 (F := Ideal) x2) (Cert.ReferenceIdeal.Read.val_main_v27 (F := Ideal) x2) x8
      = Cert.ReferenceIdeal.Read.val_main_v88 (F := Ideal) x0 x2 x5 x6 x7 x8 := rfl

theorem resultOf_congr {h h' : (⟨S100000x3, .f32⟩ : BufTy).Contents (Elt Ideal)} {s s' d d' : (⟨S1700000, .i32⟩ : BufTy).Contents (Elt Ideal)} {n n' : (⟨S1700000, .f32⟩ : BufTy).Contents (Elt Ideal)} {b b' : (⟨S3, .f32⟩ : BufTy).Contents (Elt Ideal)}
    (eh : h = h') (es : s = s') (ed : d = d') (en : n = n') (eb : b = b') : resultOf h s d n b = resultOf h' s' d' n' b' := by
  subst eh es ed en eb; rfl

/-- The result buffer at the last boundary holds the reference's result. -/
theorem result_eq : W6 m ρ c (Proc.devRef .tc main_v61) = Cert.ReferenceIdeal.Read.val_main_v88 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) :=
  (result_read (W5 m ρ c)).trans ((resultOf_congr (after_second m ρ c)
    ((kept5_main_v5 m ρ c).trans (entry_sources m ρ c)) ((kept5_main_v6 m ρ c).trans (entry_targets m ρ c))
    ((kept5_main_v26 m ρ c).trans (entry_norm m ρ c)) ((kept5_main_arg8 m ρ c).trans (entry_arg8 m ρ c))).trans
    (result_spec _ _ _ _ _ _))

end Cert.KernelIdeal.Fold

end
-- ==== Proof.lean ====
/-
  The certificate of a two-layer graph convolution written with two pipelined matrix products, against its plain
  reference.

  Both programs take node features, an edge list and two weight/bias pairs. Each layer projects the node rows by the
  layer's weights, and then for every edge (and a self loop per node) adds the source node's projected row, scaled by
  the inverse square roots of the two endpoints' degrees, to the destination node's row; the bias is added, and the
  first layer's output is clamped at zero from below.

  The kernel program computes each projection as a product tiled over bands of rows (2000 rows per grid point for the
  first layer, 5000 for the second), with both operands narrowed to bf16 and an f32 accumulator; the reference computes
  it as one host product. Over the extended reals narrowing is the identity and each band's entry is the plain sum over
  the contracted axis, the bands tile the rows, so the output array is the whole product: the same sum the reference's
  host product is. All the remaining operations (slicing the edge list, appending the self loops, counting degrees by a
  scatter-add of ones, the inverse square root, the gathers at the wrapped indices, the scaling, the scatter-adds, the
  bias and the clamp) are the same operations on both sides, the kernel program computing the endpoints and the
  normalisation once and the reference once per layer from the same edge list. So the two result arrays are equal,
  entry by entry, for every input: no finiteness is used, only that sums and products over the extended reals are
  functions of their arguments.

  The frames are the generated ones (the reference's is its generated run with the result dropped); the idealization
  rewrote nothing, so the preservation claim is trivial.
-/
import proofs.«148395_j21981642620995_1_alg».proof.Defs
import proofs.«148395_j21981642620995_1_alg».proof.Proof.Gen.Kernel
import proofs.«148395_j21981642620995_1_alg».proof.Proof.Gen.Kernel.Skeleton
import proofs.«148395_j21981642620995_1_alg».proof.Proof.Gen.Kernel.Launch
import proofs.«148395_j21981642620995_1_alg».proof.Proof.Gen.Kernel.Points
import proofs.«148395_j21981642620995_1_alg».proof.Proof.Gen.Kernel.Frame
import proofs.«148395_j21981642620995_1_alg».proof.Proof.Gen.KernelIdeal
import proofs.«148395_j21981642620995_1_alg».proof.Proof.Gen.KernelIdeal.Skeleton
import proofs.«148395_j21981642620995_1_alg».proof.Proof.Gen.KernelIdeal.Launch
import proofs.«148395_j21981642620995_1_alg».proof.Proof.Gen.KernelIdeal.Points
import proofs.«148395_j21981642620995_1_alg».proof.Proof.Gen.KernelIdeal.Frame
import proofs.«148395_j21981642620995_1_alg».proof.Proof.Gen.ReferenceIdeal
import proofs.«148395_j21981642620995_1_alg».proof.Proof.Gen.ReferenceIdeal.Run
import proofs.«148395_j21981642620995_1_alg».proof.Proof.Gen.ReferenceIdeal.Read
import proofs.«148395_j21981642620995_1_alg».proof.Proof.Gen.Pre_finite_inputs
import proofs.«148395_j21981642620995_1_alg».proof.Proof.ResultRun
import proofs.«148395_j21981642620995_1_alg».proof.Proof.Fold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
/-- The reference's run keeps its arguments; drop what it says of the result. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs run, and from memories that agree on the arguments the kernel program's result buffer ends at the
    value the reference's result buffer ends at: the kernel's last boundary contents read at its result are the
    reference's last stage of the kernel's arguments, the reference's run ends at that stage of its own arguments, and
    the arguments agree. -/
theorem algebraic : Cert.algebraic_KernelIdeal_ReferenceIdeal := by
  intro m ρ m' ρ' _ hagree
  refine ⟨fun c => Cert.KernelIdeal.Gen.W6 m ρ c (Proc.devRef .tc Cert.KernelIdeal.main_v61), Cert.KernelIdeal.ResultRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, -, a2, -, -, a5, a6, a7, a8⟩ := hagree c
  refine (Cert.ReferenceIdeal.Read.val_main_v88_eq m' c).trans ?_
  rw [a0, a2, a5, a6, a7, a8]
  exact (Cert.KernelIdeal.Fold.result_eq m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
